-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4x2048x4096 .f32) (main_arg1 : FVec F S4096x4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4x2048x4096 : Shape := ⟨3, ![4, 2048, 4096]⟩
abbrev S4096x4096 : Shape := ⟨2, ![4096, 4096]⟩
abbrev S8192x4096 : Shape := ⟨2, ![8192, 4096]⟩
abbrev S1024x1024 : Shape := ⟨2, ![1024, 1024]⟩

abbrev nBuf : Space → Nat
  | .hbm => 7
  | .vmem => 7
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S8192x4096, .bf16⟩
  | .hbm, ⟨4, _⟩ => ⟨S4096x4096, .bf16⟩
  | .hbm, ⟨5, _⟩ => ⟨S8192x4096, .f32⟩
  | .hbm, ⟨6, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  shapeCasts_S4x2048x4096_S8192x4096 : S4x2048x4096.ShapeCasts S8192x4096
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S8192x4096_S4x2048x4096 : S8192x4096.ShapeCasts S4x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S8192x4096.size a
  hwx0_2 : ∀ i : grid0.Coords, EltTy.bits .f32 = 32 ∨ (Rect.block (s := S8192x4096) S1024x1024.size (cc0_transform_2 i) (hinb0_2 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v1) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S8192x4096 : Shape := ⟨2, ![8192, 4096]⟩
abbrev S615x4096 : Shape := ⟨2, ![615, 4096]⟩
abbrev S3481x4096 : Shape := ⟨2, ![3481, 4096]⟩
abbrev S8192x615 : Shape := ⟨2, ![8192, 615]⟩
abbrev S8192x3481 : Shape := ⟨2, ![8192, 3481]⟩

abbrev nBuf : Space → Nat
  | .hbm => 9
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S8192x4096, .f32⟩
  | .hbm, ⟨3, _⟩ => ⟨S615x4096, .f32⟩
  | .hbm, ⟨4, _⟩ => ⟨S3481x4096, .f32⟩
  | .hbm, ⟨5, _⟩ => ⟨S8192x615, .f32⟩
  | .hbm, ⟨6, _⟩ => ⟨S8192x3481, .f32⟩
  | .hbm, ⟨7, _⟩ => ⟨S8192x4096, .f32⟩
  | .hbm, ⟨8, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]

class Facts₀ : Prop where
  shapeCasts_S4x2048x4096_S8192x4096 : S4x2048x4096.ShapeCasts S8192x4096
  slices_S4096x4096_S615x4096_0_0 : S4096x4096.Slices ![0, 0] S615x4096
  slices_S4096x4096_S3481x4096_615_0 : S4096x4096.Slices ![615, 0] S3481x4096
  concatenates_S8192x615_S8192x3481_S8192x4096_d1 : Shape.Concatenates [S8192x615, S8192x3481] S8192x4096 1
  shapeCasts_S8192x4096_S4x2048x4096 : S8192x4096.ShapeCasts S4x2048x4096
  dot_S8192x4096_S615x4096_S8192x615_1_1_0_0_n_n_wf : DotDims.WF S8192x4096 S615x4096 S8192x615 [1] [1] [0] [0] [] []
  dot_S8192x4096_S3481x4096_S8192x3481_1_1_0_0_n_n_wf : DotDims.WF S8192x4096 S3481x4096 S8192x3481 [1] [1] [0] [0] [] []

variable [Facts₀]

def dot_S8192x4096_S615x4096_S8192x615_1_1_0_0_n_n : DotDims S8192x4096 S615x4096 S8192x615 where
  lhsContracting := [1]
  rhsContracting := [1]
  lhsNonContracting := [0]
  rhsNonContracting := [0]
  lhsBatch := []
  rhsBatch := []
  wf := dot_S8192x4096_S615x4096_S8192x615_1_1_0_0_n_n_wf
def dot_S8192x4096_S3481x4096_S8192x3481_1_1_0_0_n_n : DotDims S8192x4096 S3481x4096 S8192x3481 where
  lhsContracting := [1]
  rhsContracting := [1]
  lhsNonContracting := [0]
  rhsNonContracting := [0]
  lhsBatch := []
  rhsBatch := []
  wf := dot_S8192x4096_S3481x4096_S8192x3481_1_1_0_0_n_n_wf

class Facts : Prop extends Facts₀ where

variable [Facts]
-- ==== Proof.RowProduct.lean ====
/-
  The mathematics both programs compute, stated once and over no program: for a matrix `A` of 8192 rows and a
  matrix `B` of 4096 rows, both with 4096 columns of extended reals, the array whose entry `(r, n)` is the inner
  product of row `r` of `A` with row `n` of `B`,  `∑ k, A[r, k] · B[n, k]`  (that is `A · Bᵀ`).

  The inner product is also reached in four steps of 1024 columns each: starting from zero, step `b` adds the
  products of columns `1024·b … 1024·b + 1023`. The extended reals are a commutative monoid under addition, so the
  sum of the first `1024·(b+1)` terms is the sum of the first `1024·b` plus the next 1024, with no condition on the
  entries (no infinity is ever cancelled or distributed over), and after four steps the sum is the whole one.
-/
import Idealize.ShloMosaic.PureOps.Ideal
import Idealize.ShloMosaic.Lib.ValueIdx

noncomputable section

namespace Cert.RowProduct

open Idealize.ShloMosaic Idealize.ShloMosaic.ValueIdx

/-- The left matrix's shape: 8192 rows, 4096 columns. -/
abbrev SA : Shape := ⟨2, ![8192, 4096]⟩
/-- The right matrix's shape: 4096 rows, 4096 columns. -/
abbrev SB : Shape := ⟨2, ![4096, 4096]⟩

/-- A natural number as a row of the left matrix (reduced modulo 8192: the identity on the rows that exist). -/
def rowOf (a : ℕ) : Fin 8192 := ⟨a % 8192, Nat.mod_lt _ (by norm_num)⟩
/-- A natural number as a column (or a row of the right matrix), reduced modulo 4096. -/
def colOf (a : ℕ) : Fin 4096 := ⟨a % 4096, Nat.mod_lt _ (by norm_num)⟩

theorem rowOf_val (a : ℕ) (h : a < 8192) : (rowOf a).val = a := Nat.mod_eq_of_lt h
theorem colOf_val (a : ℕ) (h : a < 4096) : (colOf a).val = a := Nat.mod_eq_of_lt h
theorem rowOf_fin (a : Fin 8192) : rowOf a.val = a := Fin.ext (Nat.mod_eq_of_lt a.isLt)
theorem colOf_fin (a : Fin 4096) : colOf a.val = a := Fin.ext (Nat.mod_eq_of_lt a.isLt)

/-- Term `k` of the inner product of row `r` of `A` with row `n` of `B`. -/
def term (A : SA.Idx → EReal) (B : SB.Idx → EReal) (r n k : ℕ) : EReal :=
  A (ix2 (rowOf r) (colOf k)) * B (ix2 (colOf n) (colOf k))

/-- The inner product's first `1024 · nb` terms. -/
def partialDot (A : SA.Idx → EReal) (B : SB.Idx → EReal) (r n nb : ℕ) : EReal :=
  ∑ k ∈ Finset.range (1024 * nb), term A B r n k

/-- `A · Bᵀ`: entry `(r, n)` is the inner product of row `r` of `A` with row `n` of `B`. -/
def product (A : SA.Idx → EReal) (B : SB.Idx → EReal) : SA.Idx → EReal :=
  fun i => ∑ k : Fin 4096, A (ix2 (i 0) k) * B (ix2 (i 1) k)

theorem partialDot_zero (A : SA.Idx → EReal) (B : SB.Idx → EReal) (r n : ℕ) : partialDot A B r n 0 = 0 := by
  unfold partialDot
  simp

/-- One more step of 1024 columns. -/
theorem partialDot_succ (A : SA.Idx → EReal) (B : SB.Idx → EReal) (r n nb : ℕ) :
    partialDot A B r n (nb + 1) = partialDot A B r n nb + ∑ kk : Fin 1024, term A B r n (1024 * nb + kk.val) := by
  unfold partialDot
  rw [show 1024 * (nb + 1) = 1024 * nb + 1024 from by ring, Finset.sum_range_add, Finset.sum_range (fun x => term A B r n (1024 * nb + x))]

/-- Four steps are the whole inner product. -/
theorem partialDot_four (A : SA.Idx → EReal) (B : SB.Idx → EReal) (i : SA.Idx) :
    partialDot A B (i 0).val (i 1).val 4 = product A B i := by
  unfold partialDot product
  rw [show 1024 * 4 = 4096 from rfl, Finset.sum_range (fun x => term A B (i 0).val (i 1).val x)]
  refine Finset.sum_congr rfl fun k _ => ?_
  unfold term
  rw [rowOf_fin (i 0), colOf_fin (i 1), colOf_fin k]

end Cert.RowProduct

end
-- ==== Proof.ReferenceProduct.lean ====
/-
  The reference, read: it multiplies the 8192 × 4096 matrix by the first 615 rows of the weights and by the remaining
  3481 rows separately and joins the two results along the columns. Column `n` of the joined array comes from the
  first product when `n < 615` (row `n` of the weights) and from the second otherwise (row `615 + (n - 615)` of the
  weights): in both cases it is the inner product with row `n` of the whole weight matrix, so the joined array is
  the one product `A · Bᵀ`.
-/
import proofs.«115120_j1717986918494_2_alg».proof.Proof.Gen.ReferenceIdeal.Read
import proofs.«115120_j1717986918494_2_alg».proof.Proof.RowProduct

noncomputable section

namespace Cert.ReferenceProduct

open Cert.ReferenceIdeal Cert.ReferenceIdeal.Read Idealize.ShloMosaic Idealize.ShloMosaic.ValueIdx
open Cert.RowProduct (product)

/-- The two partial products joined along the columns are the product with the whole weight matrix. -/
theorem joined_eq_product (x0 : (⟨S4x2048x4096, .f32⟩ : BufTy).Contents (Elt Ideal)) (x1 : (⟨S4096x4096, .f32⟩ : BufTy).Contents (Elt Ideal)) :
    val_main_v5 (F := Ideal) x0 x1 = product (val_main_v0 (F := Ideal) x0) x1 := by
  funext j
  unfold val_main_v5 product
  by_cases h : (j 1).val < 615
  · -- a column of the first piece: row `n` of the first 615 rows
    refine (concatenate_pair_apply_left (s₁ := S8192x615) (s₂ := S8192x3481) (1 : Fin 2) _ _ _ j rfl (ix2 (j 0) (⟨(j 1).val, h⟩ : Fin 615))
      (fun b => match b with | ⟨0, _⟩ => rfl | ⟨1, _⟩ => rfl)).trans ?_
    rw [val_main_v3_apply]
    refine Finset.sum_congr rfl fun k _ => ?_
    rw [val_main_v1_apply]
    have el : lidx_main_v3 (ix2 (j 0) (⟨(j 1).val, h⟩ : Fin 615)) k = ix2 (j 0) k :=
      funext fun a => Fin.ext (by match a with | ⟨0, _⟩ => rfl | ⟨1, _⟩ => rfl)
    have er : idx_main_v1 (ridx_main_v3 (ix2 (j 0) (⟨(j 1).val, h⟩ : Fin 615)) k) = ix2 (j 1) k :=
      funext fun a => Fin.ext (by match a with | ⟨0, _⟩ => rfl | ⟨1, _⟩ => rfl)
    rw [el, er]
    rfl
  · -- a column of the second piece: row `615 + (n - 615)` of the weights
    have h1 : (j 1).val < 4096 := (j 1).isLt
    refine (concatenate_pair_apply_right (s₁ := S8192x615) (s₂ := S8192x3481) (1 : Fin 2) _ _ _ j rfl rfl
      (ix2 (j 0) (⟨(j 1).val - 615, by omega⟩ : Fin 3481))
      (fun b hb => match b, hb with | ⟨0, _⟩, _ => rfl | ⟨1, _⟩, hb => absurd rfl hb)
      (by show (j 1).val - 615 + 615 = (j 1).val; omega)).trans ?_
    rw [val_main_v4_apply]
    refine Finset.sum_congr rfl fun k _ => ?_
    rw [val_main_v2_apply]
    have el : lidx_main_v4 (ix2 (j 0) (⟨(j 1).val - 615, by omega⟩ : Fin 3481)) k = ix2 (j 0) k :=
      funext fun a => Fin.ext (by match a with | ⟨0, _⟩ => rfl | ⟨1, _⟩ => rfl)
    have er : idx_main_v2 (ridx_main_v4 (ix2 (j 0) (⟨(j 1).val - 615, by omega⟩ : Fin 3481)) k) = ix2 (j 1) k :=
      funext fun a => Fin.ext (by
        match a with
        | ⟨0, _⟩ => show 615 + ((j 1).val - 615) = (j 1).val; omega
        | ⟨1, _⟩ => rfl)
    rw [el, er]
    rfl

end Cert.ReferenceProduct

end
-- ==== Proof.Pieces.lean ====
/-
  What the body leaves behind, case by case, as values. The body has three cases over the grid's last coordinate
  `k`: at `k = 0` it zeroes the accumulator, then adds the blocks' product to it; at `k = 1, 2` it only adds; at
  `k = 3` it adds and then copies the accumulator to the output block. Every store covers its whole 1024 × 1024
  buffer at offset zero, so what a buffer holds afterwards is the last store's value, and a load of a buffer just
  stored reads that value back:
    * first case: the accumulator ends at  step(x0, x1, zero);
    * other cases: the accumulator ends at  step(x0, x1, what the point before left);
    * last case: the output block ends at the same value as the accumulator.
-/
import proofs.«115120_j1717986918494_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

/-- The stores' offset is zero on both axes. -/
theorem offset_zero : (![0, 0] : Fin 2 → Nat) = fun _ => 0 := funext fun a => by fin_cases a <;> rfl

/-- First case (`k = 0`): the accumulator is zeroed, read back, and the blocks' product added. -/
theorem acc_first (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : cond0_0 i) (hc1 : ¬cond0_1 i)
    (x0 : Vec F S1024x1024 .bf16) (x1 : Vec F S1024x1024 .bf16) :
    sout0_A_0 c i arg3 harg3 arg4 harg4 arg5 harg5 arg6 harg6 hc0 hc1 x0 x1 = k0_pay2 x0 x1 (k0_pay1 (F := F)) := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x1024) offset_zero, View.readCov_unit_zero (S := S1024x1024) _ offset_zero]
  simp only [View.readAt_eq_ld, harg3.read_unread, harg4.read_unread, View.ld_unit_zero (S := S1024x1024) offset_zero]

/-- Middle cases (`k = 1, 2`): the blocks' product is added to what the accumulator held. -/
theorem acc_middle (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : ¬cond0_1 i)
    (x0 : Vec F S1024x1024 .bf16) (x1 : Vec F S1024x1024 .bf16) (xs0 : Vec F S1024x1024 .f32) :
    sout0_B_0 c i arg3 harg3 arg4 harg4 arg5 harg5 arg6 harg6 hc0 hc1 x0 x1 xs0 = k0_pay2 x0 x1 xs0 := by
  unfold sout0_B_0
  rw [View.read_writes_eq_canon _ _ _ (scover0_B_0 c i arg3 harg3 arg4 harg4 arg5 harg5 arg6 harg6 hc0 hc1 x0 x1 xs0)]
  unfold kernelRun0_B
  dsimp only
  sl_unfold_words
  rw [View.canon_unit_zero (S := S1024x1024) offset_zero]
  simp only [View.readAt_eq_ld, harg3.read_unread, harg4.read_unread, harg6.read_unread, View.ld_unit_zero (S := S1024x1024) offset_zero]

/-- Last case (`k = 3`), the accumulator: as in the middle cases. -/
theorem acc_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    sout0_C_0 c i arg3 harg3 arg4 harg4 arg5 harg5 arg6 harg6 hc0 hc1 x0 x1 xs0 = k0_pay2 x0 x1 xs0 := by
  unfold sout0_C_0
  rw [View.read_writes_eq_canon _ _ _ (scover0_C_0 c i arg3 harg3 arg4 harg4 arg5 harg5 arg6 harg6 hc0 hc1 x0 x1 xs0)]
  unfold kernelRun0_C
  dsimp only
  sl_unfold_words
  rw [View.canon_unit_zero (S := S1024x1024) offset_zero]
  simp only [View.readAt_eq_ld, harg3.read_unread, harg4.read_unread, harg6.read_unread, View.ld_unit_zero (S := S1024x1024) offset_zero]

/-- Last case (`k = 3`), the output block: the accumulator's new value, read back and stored. -/
theorem out_last (c : Dev nD) (i : grid0.Coords) (arg3 : Memref sig .tc .vmem S1024x1024 .bf16) (harg3 : arg3.IsWhole) (arg4 : Memref sig .tc .vmem S1024x1024 .bf16) (harg4 : arg4.IsWhole) (arg5 : Memref sig .tc .vmem S1024x1024 .f32) (harg5 : arg5.IsWhole) (arg6 : Memref sig .tc .vmem S1024x1024 .f32) (harg6 : arg6.IsWhole) (hc0 : ¬cond0_0 i) (hc1 : cond0_1 i)
    (x0 : Vec F S1024x1024 .bf16) (x1 : Vec F S1024x1024 .bf16) (xs0 : Vec F S1024x1024 .f32) :
    out0_C_2 c i arg3 harg3 arg4 harg4 arg5 harg5 arg6 harg6 hc0 hc1 x0 x1 xs0 = k0_pay2 x0 x1 xs0 := by
  unfold out0_C_2
  rw [View.read_writes_eq_canon _ _ _ (cover0_C_2 c i arg3 harg3 arg4 harg4 arg5 harg5 arg6 harg6 hc0 hc1 x0 x1 xs0)]
  unfold kernelRun0_C
  dsimp only
  sl_unfold_words
  rw [View.canon_unit_zero (S := S1024x1024) offset_zero, View.readCov_unit_zero (S := S1024x1024) _ offset_zero]
  simp only [View.readAt_eq_ld, harg3.read_unread, harg4.read_unread, harg6.read_unread, View.ld_unit_zero (S := S1024x1024) offset_zero]

end Cert.KernelIdeal.Pieces

end
-- ==== Proof.PointValues.lean ====
/-
  What the accumulator and the output block hold after each grid point, in terms of the point before. The grid's
  128 points are visited in order, the last coordinate `k = t mod 4` moving fastest:
    * at a point with `k = 0` the accumulator ends at  step(x-block, w-block, zero);
    * at a point with `k ≠ 0` it ends at  step(x-block, w-block, what point `t - 1` left in it);
    * at a point with `k = 3` the output block ends at the accumulator's value.
-/
import proofs.«115120_j1717986918494_2_alg».proof.Proof.Pieces

noncomputable section

namespace Cert.KernelIdeal.PointValues

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The accumulator after a point with `k = 0`. -/
theorem acc_at_first (c : Dev nD) (t : Fin cfg0.N) (h0 : t.val % 4 = 0) :
    (outsAt0 m c t.val t.isLt).2 = k0_pay2 (iblk m c 0 t) (iblk m c 1 t) (k0_pay1 (F := F)) := by
  have h1 : ¬t.val % 4 = 3 := by omega
  rw [outsAt0_A m c t h0 h1]
  dsimp only
  exact Pieces.acc_first (F := F) c (grid0.coords t) (ms0_0 t) (hs0_0 t) (ms0_1 t) (hs0_1 t) (ms0_2 t) (hs0_2 t) scM0_0 (Memref.isWhole_whole cc0_scratch0) ((hcond0_0 t).mpr h0) (fun h => h1 ((hcond0_1 t).mp h)) (iblk m c 0 t) (iblk m c 1 t)

/-- The accumulator after a point with `k ≠ 0`: one more step over what the point before left. -/
theorem acc_at_later (c : Dev nD) (t : Fin cfg0.N) (h0 : ¬t.val % 4 = 0) :
    (outsAt0 m c t.val t.isLt).2
      = k0_pay2 (iblk m c 0 t) (iblk m c 1 t) (outsAt0 m c (t.val - 1) (Nat.lt_of_le_of_lt (Nat.sub_le _ _) t.isLt)).2 := by
  by_cases h1 : t.val % 4 = 3
  · rw [outsAt0_C m c t h0 h1]
    dsimp only
    exact Pieces.acc_last (F := F) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2
  · rw [outsAt0_B m c t h0 h1]
    dsimp only
    exact Pieces.acc_middle (F := F) c (grid0.coords t) (ms0_0 t) (hs0_0 t) (ms0_1 t) (hs0_1 t) (ms0_2 t) (hs0_2 t) scM0_0 (Memref.isWhole_whole cc0_scratch0) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2

/-- At a point with `k = 3` the output block holds what the accumulator holds. -/
theorem out_at_last (c : Dev nD) (t : Fin cfg0.N) (h1 : t.val % 4 = 3) :
    (outsAt0 m c t.val t.isLt).1 = (outsAt0 m c t.val t.isLt).2 := by
  have h0 : ¬t.val % 4 = 0 := by omega
  rw [outsAt0_C m c t h0 h1]
  dsimp only
  exact (Pieces.out_last (F := F) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2).trans
    (Pieces.acc_last (F := F) c (grid0.coords t) (ms0_0 t) (hs0_0 t) (ms0_1 t) (hs0_1 t) (ms0_2 t) (hs0_2 t) scM0_0 (Memref.isWhole_whole cc0_scratch0) (fun h => h0 ((hcond0_0 t).mp h)) ((hcond0_1 t).mpr h1) (iblk m c 0 t) (iblk m c 1 t)
      (outsAt0 m c (t.val - 1) (Nat.lt_of_le_of_lt (Nat.sub_le _ _) t.isLt)).2).symm

end Cert.KernelIdeal.PointValues

end
-- ==== Proof.BlockStep.lean ====
/-
  One step of the accumulation, entry by entry, over the extended reals. The body adds to the 1024 × 1024
  accumulator the matrix unit's product of the two 1024 × 1024 input blocks, contracting the SECOND axis of both
  (block of `x` times the transpose of the block of the weights) into a zero accumulator. At an entry `(p, q)`
  that product is the sum over the block's 1024 columns `k` of `x0[p, k] · x1[q, k]`, so the step leaves
  `acc[p, q] + ∑ k, x0[p, k] · x1[q, k]`; the reset stores zero everywhere.
-/
import proofs.«115120_j1717986918494_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.BlockStep

open Cert.KernelIdeal Cert.KernelIdeal.Gen Idealize.ShloMosaic Idealize.ShloMosaic.ValueIdx

/-- The left operand's row is the output's row. -/
theorem lhs_row (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contracted index. -/
theorem lhs_col (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand's row is the output's column. -/
theorem rhs_row (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column is the contracted index. -/
theorem rhs_col (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The matrix unit's product into a zero accumulator, at entry `(p, q)`: the inner product of row `p` of the left
    block with row `q` of the right block. -/
theorem product_apply (x0 x1 : FVec Ideal S1024x1024 .bf16) (p q : Fin 1024) :
    matmul (F := Ideal) dot_S1024x1024_S1024x1024_S1024x1024_1_1_0_0_n_n none x0 x1 (constant (F := Ideal) S1024x1024 .f32 0x00000000#32) (ix2 p q)
      = ∑ k : Fin 1024, x0 (ix2 p k) * x1 (ix2 q k) := by
  refine (Ideal.matmul_constant_zero_apply dot_S1024x1024_S1024x1024_S1024x1024_1_1_0_0_n_n none x0 x1 (ix2 p q)).trans ?_
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have el : dot_S1024x1024_S1024x1024_S1024x1024_1_1_0_0_n_n.lhsIdx (ix2 p q) ((contrEquiv1 dot_S1024x1024_S1024x1024_S1024x1024_1_1_0_0_n_n 1024 rfl rfl).symm k) = ix2 p k :=
    funext fun a => Fin.ext (by
      match a with
      | ⟨0, _⟩ => exact lhs_row _ _
      | ⟨1, _⟩ => exact (lhs_col _ _).trans hk)
  have er : dot_S1024x1024_S1024x1024_S1024x1024_1_1_0_0_n_n.rhsIdx (ix2 p q) ((contrEquiv1 dot_S1024x1024_S1024x1024_S1024x1024_1_1_0_0_n_n 1024 rfl rfl).symm k) = ix2 q k :=
    funext fun a => Fin.ext (by
      match a with
      | ⟨0, _⟩ => exact rhs_row _ _
      | ⟨1, _⟩ => exact (rhs_col _ _).trans hk)
  rw [el, er]

/-- The reset's payload is zero at every entry. -/
theorem reset_apply (y : S1024x1024.Idx) : k0_pay1 (F := Ideal) y = 0 := by
  unfold k0_pay1
  rw [shapeCast_self]
  exact Ideal.ofBits_zero_f32

/-- The step's payload at entry `(p, q)`: the accumulator's entry plus the blocks' inner product. -/
theorem step_apply (x0 x1 : Vec Ideal S1024x1024 .bf16) (acc : Vec Ideal S1024x1024 .f32) (p q : Fin 1024) :
    k0_pay2 (F := Ideal) x0 x1 acc (ix2 p q) = acc (ix2 p q) + ∑ k : Fin 1024, x0 (ix2 p k) * x1 (ix2 q k) := by
  unfold k0_pay2
  simp only [shapeCast_self]
  exact congrArg (acc (ix2 p q) + ·) (product_apply x0 x1 p q)

end Cert.KernelIdeal.BlockStep

end
-- ==== Proof.Accumulation.lean ====
/-
  The accumulation, summed up. Write `A` for the 8192 × 4096 matrix the region finds in its first operand and `B`
  for the 4096 × 4096 matrix in its second. Grid point `t` has coordinates `(i, j, k) = (t / 16, t / 4 mod 4, t mod 4)`;
  its block of `A` is rows `1024·i …`, columns `1024·k …`, and its block of `B` is rows `1024·j …`, columns
  `1024·k …`. So the step at `t` adds, at entry `(p, q)`, terms `1024·k … 1024·k + 1023` of the inner product of row
  `1024·i + p` of `A` with row `1024·j + q` of `B`, and by induction on the point the accumulator's entry `(p, q)`
  after point `t` is that inner product's first `1024·(k + 1)` terms. At `k = 3` this is the whole inner product,
  and the output block holds it.
-/
import proofs.«115120_j1717986918494_2_alg».proof.Proof.PointValues
import proofs.«115120_j1717986918494_2_alg».proof.Proof.BlockStep
import proofs.«115120_j1717986918494_2_alg».proof.Proof.RowProduct

noncomputable section

namespace Cert.KernelIdeal.Accumulation

open Idealize.ShloMosaic Idealize.ShloMosaic.TcCoe Idealize.SL.Sem Idealize.ShloMosaic.ValueIdx
open Cert.KernelIdeal Cert.KernelIdeal.Gen
open Cert.RowProduct (SA SB rowOf colOf term partialDot product partialDot_zero partialDot_succ partialDot_four)

variable (m : (ℓ : Loc nD τ sig) → Buf (Elt Ideal) ℓ)

/-- The left matrix: the region's first operand as the region finds it. -/
abbrev lhs (c : Dev nD) : SA.Idx → EReal := V m c main_v1
/-- The right matrix: the region's second operand as the region finds it. -/
abbrev rhs (c : Dev nD) : SB.Idx → EReal := V m c main_v2

/-- The three windows' block indices at point `t`, decided over the grid. -/
theorem block_indices : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 16 ∧ win0_2.index t (1 : Fin 2) = t.val / 4 % 4 :=
  (by decide +kernel : ∀ t : Fin grid0.N, _)

/-- The first operand's block at point `t`, entry `(p, k)`: row `1024·(t/16) + p`, column `1024·(t mod 4) + k` of `A`. -/
theorem lhs_block (c : Dev nD) (t : Fin cfg0.N) (p k : Fin 1024) :
    (iblk m c 0 t : Vec Ideal S1024x1024 .bf16) (ix2 p k)
      = lhs m c (ix2 (rowOf (t.val / 16 * 1024 + p.val)) (colOf (1024 * (t.val % 4) + k.val))) := by
  obtain ⟨e0, e1, -⟩ := block_indices t
  have hN : t.val < 128 := lt_of_lt_of_eq t.isLt N_0
  have hp := p.isLt
  have hk := k.isLt
  unfold iblk
  rw [View.read_apply]
  show V m c main_v1 _ = V m c main_v1 _
  congr 1
  funext a
  apply Fin.ext
  match a with
  | ⟨0, _⟩ => show win0_0.index t (0 : Fin 2) * 1024 + 1 * p.val = (t.val / 16 * 1024 + p.val) % 8192; rw [e0]; omega
  | ⟨1, _⟩ => show win0_0.index t (1 : Fin 2) * 1024 + 1 * k.val = (1024 * (t.val % 4) + k.val) % 4096; rw [e1]; omega

/-- The second operand's block at point `t`, entry `(q, k)`: row `1024·(t/4 mod 4) + q`, column `1024·(t mod 4) + k` of `B`. -/
theorem rhs_block (c : Dev nD) (t : Fin cfg0.N) (q k : Fin 1024) :
    (iblk m c 1 t : Vec Ideal S1024x1024 .bf16) (ix2 q k)
      = rhs m c (ix2 (colOf (t.val / 4 % 4 * 1024 + q.val)) (colOf (1024 * (t.val % 4) + k.val))) := by
  obtain ⟨-, -, e2, e3, -⟩ := block_indices t
  have hN : t.val < 128 := lt_of_lt_of_eq t.isLt N_0
  have hq := q.isLt
  have hk := k.isLt
  unfold iblk
  rw [View.read_apply]
  show V m c main_v2 _ = V m c main_v2 _
  congr 1
  funext a
  apply Fin.ext
  match a with
  | ⟨0, _⟩ => show win0_1.index t (0 : Fin 2) * 1024 + 1 * q.val = (t.val / 4 % 4 * 1024 + q.val) % 4096; rw [e2]; omega
  | ⟨1, _⟩ => show win0_1.index t (1 : Fin 2) * 1024 + 1 * k.val = (1024 * (t.val % 4) + k.val) % 4096; rw [e3]; omega

/-- The inner product of row `p` of one 1024 × 1024 block with row `q` of another. -/
abbrev blockDot (x0 x1 : Vec Ideal S1024x1024 .bf16) (p q : Fin 1024) : EReal :=
  ∑ k : Fin 1024, x0 (ix2 p k) * x1 (ix2 q k)

/-- The two blocks' inner product at `(p, q)` is the next 1024 terms of the rows' inner product. -/
theorem block_dot (c : Dev nD) (t : Fin cfg0.N) (p q : Fin 1024) :
    blockDot (iblk m c 0 t) (iblk m c 1 t) p q
      = ∑ kk : Fin 1024, term (lhs m c) (rhs m c) (t.val / 16 * 1024 + p.val) (t.val / 4 % 4 * 1024 + q.val) (1024 * (t.val % 4) + kk.val) :=
  Finset.sum_congr rfl fun k _ => congrArg₂ (· * ·) (lhs_block m c t p k) (rhs_block m c t q k)

/-- One step at point `t`, at entry `(p, q)`, over any accumulator. -/
theorem step_at (c : Dev nD) (t : Fin cfg0.N) (acc : Vec Ideal S1024x1024 .f32) (p q : Fin 1024) :
    k0_pay2 (F := Ideal) (iblk m c 0 t) (iblk m c 1 t) acc (ix2 p q)
      = acc (ix2 p q) + ∑ kk : Fin 1024, term (lhs m c) (rhs m c) (t.val / 16 * 1024 + p.val) (t.val / 4 % 4 * 1024 + q.val) (1024 * (t.val % 4) + kk.val) :=
  (BlockStep.step_apply (iblk m c 0 t) (iblk m c 1 t) acc p q).trans (congrArg (acc (ix2 p q) + ·) (block_dot m c t p q))

/-- After a point with `k = 0`: the first 1024 terms. -/
theorem first_entry (c : Dev nD) (t : Fin cfg0.N) (h0 : t.val % 4 = 0) (p q : Fin 1024) :
    (outsAt0 m c t.val t.isLt).2 (ix2 p q)
      = partialDot (lhs m c) (rhs m c) (t.val / 16 * 1024 + p.val) (t.val / 4 % 4 * 1024 + q.val) (t.val % 4 + 1) := by
  refine (congrFun (PointValues.acc_at_first m c t h0) (ix2 p q)).trans ?_
  refine (step_at m c t (k0_pay1 (F := Ideal)) p q).trans ?_
  rw [BlockStep.reset_apply, partialDot_succ, h0, partialDot_zero]

/-- After a point with `k ≠ 0`, given the point before: 1024 more terms. -/
theorem later_entry (c : Dev nD) (t : Fin cfg0.N) (h0 : ¬t.val % 4 = 0) (p q : Fin 1024)
    (ih : (outsAt0 m c (t.val - 1) (Nat.lt_of_le_of_lt (Nat.sub_le _ _) t.isLt)).2 (ix2 p q)
      = partialDot (lhs m c) (rhs m c) ((t.val - 1) / 16 * 1024 + p.val) ((t.val - 1) / 4 % 4 * 1024 + q.val) ((t.val - 1) % 4 + 1)) :
    (outsAt0 m c t.val t.isLt).2 (ix2 p q)
      = partialDot (lhs m c) (rhs m c) (t.val / 16 * 1024 + p.val) (t.val / 4 % 4 * 1024 + q.val) (t.val % 4 + 1) := by
  refine (congrFun (PointValues.acc_at_later m c t h0) (ix2 p q)).trans ?_
  refine (step_at m c t _ p q).trans ?_
  have e1 : (t.val - 1) / 16 = t.val / 16 := by omega
  have e2 : (t.val - 1) / 4 % 4 = t.val / 4 % 4 := by omega
  have e3 : (t.val - 1) % 4 + 1 = t.val % 4 := by omega
  rw [e1, e2, e3] at ih
  rw [ih, partialDot_succ]

/-- THE INVARIANT: after point `n`, entry `(p, q)` of the accumulator is the first `1024·(n mod 4 + 1)` terms of the
    inner product of row `1024·(n/16) + p` of `A` with row `1024·(n/4 mod 4) + q` of `B`. -/
theorem acc_entry (c : Dev nD) : ∀ (n : ℕ) (h : n < cfg0.N) (p q : Fin 1024),
    (outsAt0 m c n h).2 (ix2 p q)
      = partialDot (lhs m c) (rhs m c) (n / 16 * 1024 + p.val) (n / 4 % 4 * 1024 + q.val) (n % 4 + 1)
  | 0, h, p, q => first_entry m c ⟨0, h⟩ rfl p q
  | n + 1, h, p, q => by
    by_cases h0 : (n + 1) % 4 = 0
    · exact first_entry m c ⟨n + 1, h⟩ h0 p q
    · exact later_entry m c ⟨n + 1, h⟩ h0 p q (acc_entry c n (Nat.lt_of_succ_lt h) p q)

/-- At a point with `k = 3` the output block's entry `y` is the whole inner product of the two rows. -/
theorem out_entry (c : Dev nD) (t : Fin cfg0.N) (h3 : t.val % 4 = 3) (y : S1024x1024.Idx) :
    (outsAt0 m c t.val t.isLt).1 y
      = product (lhs m c) (rhs m c) (ix2 (rowOf (t.val / 16 * 1024 + (y 0).val)) (colOf (t.val / 4 % 4 * 1024 + (y 1).val))) := by
  obtain ⟨p, q, rfl⟩ : ∃ (p q : Fin 1024), y = ix2 p q := ⟨y 0, y 1, eq_ix2 y⟩
  have hN : t.val < 128 := lt_of_lt_of_eq t.isLt N_0
  have hp := p.isLt
  have hq := q.isLt
  rw [PointValues.out_at_last m c t h3, acc_entry m c t.val t.isLt p q, h3]
  have hr : (rowOf (t.val / 16 * 1024 + p.val)).val = t.val / 16 * 1024 + p.val := Cert.RowProduct.rowOf_val _ (by omega)
  have hc : (colOf (t.val / 4 % 4 * 1024 + q.val)).val = t.val / 4 % 4 * 1024 + q.val := Cert.RowProduct.colOf_val _ (by omega)
  have e := partialDot_four (lhs m c) (rhs m c) (ix2 (rowOf (t.val / 16 * 1024 + p.val)) (colOf (t.val / 4 % 4 * 1024 + q.val)))
  rw [← e]
  show partialDot _ _ _ _ 4 = partialDot _ _ (rowOf (t.val / 16 * 1024 + p.val)).val (colOf (t.val / 4 % 4 * 1024 + q.val)).val 4
  rw [hr, hc]

end Cert.KernelIdeal.Accumulation

end
-- ==== Proof.ResultArray.lean ====
/-
  From blocks to the whole result. The output block written back at point `t = (i, j, 3)` is block `(i, j)` of the
  8192 × 4096 array `A · Bᵀ`: its entry `(p, q)` is the inner product of row `1024·i + p` of `A` with row
  `1024·j + q` of `B`. The 8 × 4 blocks tile the array (entry `(r, n)` lies in the block written at the point
  `16·(r / 1024) + 4·(n / 1024) + 3`), so after the region the array is `A · Bᵀ`.

  Around the region the program only changes layout: before it, `A` is the first argument reshaped from
  4 × 2048 × 4096 to 8192 × 4096 and `B` is the second argument (the changes of float format are the identity on
  extended reals); after it, the result is reshaped back to 4 × 2048 × 4096.
-/
import proofs.«115120_j1717986918494_2_alg».proof.Proof.Accumulation
import Idealize.ShloMosaic.Lib.Pipeline.Value
import Idealize.ShloMosaic.Lib.StableHlo.Run
import Idealize.ShloMosaic.Lib.Tactic

noncomputable section

namespace Cert.KernelIdeal.ResultArray

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Accumulation
open Cert.RowProduct (product rowOf colOf)

variable (m : (ℓ : Loc nD τ sig) → Buf (Elt Ideal) ℓ) (ρ : Dev nD → PrngReg)

/-- What the region's result array ends holding: `A · Bᵀ` of its two operands as it finds them. -/
abbrev regionResult (c : Dev nD) : Buf (Elt Ideal) ((c : Thread nD τ).loc main_v3) := product (lhs m c) (rhs m c)

/-- What a point with `k = 3` writes back is its block of `A · Bᵀ`. -/
theorem flushed_eq (c : Dev nD) (t : Fin cfg0.N) (hf : (cfg0.win 2).flush t = true) :
    (dats m 0 c).flushed 2 t = ((cfg0.win 2).blk t).view.read (Elt Ideal) (regionResult m c) := by
  have h3 : t.val % 4 = 3 := (flush0_2 t).mp hf
  obtain ⟨-, -, -, -, e4, e5⟩ := block_indices t
  have hN : t.val < 128 := lt_of_lt_of_eq t.isLt N_0
  show (cfg0.win 2).cut (grid0.coords t) ((dats m 0 c).after 2 t) = _
  rw [after0_2]
  funext y
  show (outsAt0 m c t.val t.isLt).1 y = product (lhs m c) (rhs m c) (((cfg0.win 2).blk t).view.emb y)
  refine (out_entry m c t h3 y).trans ?_
  congr 1
  funext a
  apply Fin.ext
  match a with
  | ⟨0, _⟩ =>
    show (t.val / 16 * 1024 + (y 0).val) % 8192 = win0_2.index t (0 : Fin 2) * 1024 + 1 * (y 0).val
    have hy : (y 0).val < 1024 := (y 0).isLt
    rw [e4]; omega
  | ⟨1, _⟩ =>
    show (t.val / 4 % 4 * 1024 + (y 1).val) % 4096 = win0_2.index t (1 : Fin 2) * 1024 + 1 * (y 1).val
    have hy : (y 1).val < 1024 := (y 1).isLt
    rw [e5]; omega

/-- An index of the array lies in point `t`'s block iff each coordinate lies in the block's range on its axis. -/
theorem mem_block (t : Fin cfg0.N) (i : S8192x4096.Idx) :
    i ∈ ((cfg0.win 2).blk t).view.set ↔ ∀ a : Fin 2, win0_2.index t a * S1024x1024.size a ≤ (i a).val ∧ (i a).val < win0_2.index t a * S1024x1024.size a + S1024x1024.size a := by
  show i ∈ ((View.whole main_v3).slice (win0_2.rect t)).set ↔ _
  rw [View.set_slice_whole, Rect.mem_set_unit]
  exact Iff.rfl

/-- Every entry of the array lies in the block some point with `k = 3` writes back. -/
theorem cover (i : S8192x4096.Idx) : ∃ t : Fin cfg0.N, (cfg0.win 2).flush t = true ∧ i ∈ ((cfg0.win 2).blk t).view.set := by
  have h0 : (i 0).val < 8192 := (i 0).isLt
  have h1 : (i 1).val < 4096 := (i 1).isLt
  have hN : cfg0.N = 128 := N_0
  let t : Fin cfg0.N := ⟨16 * ((i 0).val / 1024) + 4 * ((i 1).val / 1024) + 3, by rw [hN]; omega⟩
  have ht : t.val = 16 * ((i 0).val / 1024) + 4 * ((i 1).val / 1024) + 3 := rfl
  obtain ⟨-, -, -, -, e4, e5⟩ := block_indices t
  refine ⟨t, (flush0_2 t).mpr (by rw [ht]; omega), ?_⟩
  rw [mem_block]
  intro a
  match a with
  | ⟨0, _⟩ =>
    show win0_2.index t (0 : Fin 2) * 1024 ≤ (i 0).val ∧ (i 0).val < win0_2.index t (0 : Fin 2) * 1024 + 1024
    rw [e4, ht]; omega
  | ⟨1, _⟩ =>
    show win0_2.index t (1 : Fin 2) * 1024 ≤ (i 1).val ∧ (i 1).val < win0_2.index t (1 : Fin 2) * 1024 + 1024
    rw [e5, ht]; omega

/-- After the region its result array is `A · Bᵀ`. -/
theorem final (c : Dev nD) : (dats m 0 c).arrAt 2 cfg0.N = regionResult m c :=
  (dats m 0 c).arrAt_eq_of_cover 2 (regionResult m c) (flushed_eq m c) cover

/-- `A` is the first argument, reshaped to 8192 × 4096 (the change of float format is the identity). -/
theorem lhs_eq (c : Dev nD) :
    lhs m c = shapeCast S8192x4096 (m ((c : Thread nD τ).loc main_arg0)) shapeCasts_S4x2048x4096_S8192x4096 := by
  show StableHlo.after hostOps0 (fun b => m (c, b)) (Proc.devRef .tc main_v1) = _
  after_results
  rfl

/-- `B` is the second argument. -/
theorem rhs_eq (c : Dev nD) : rhs m c = m ((c : Thread nD τ).loc main_arg1) := by
  show StableHlo.after hostOps0 (fun b => m (c, b)) (Proc.devRef .tc main_v2) = _
  after_results
  rfl

/-- The program's result as a function of its arguments: the product, reshaped to 4 × 2048 × 4096. -/
abbrev result (c : Dev nD) : Buf (Elt Ideal) ((c : Thread nD τ).loc main_v4) :=
  shapeCast S4x2048x4096
    (product (shapeCast S8192x4096 (m ((c : Thread nD τ).loc main_arg0)) shapeCasts_S4x2048x4096_S8192x4096) (m ((c : Thread nD τ).loc main_arg1)))
    shapeCasts_S8192x4096_S4x2048x4096

/-- The reshape after the region, applied to the region's result. -/
theorem tail_eq (c : Dev nD) :
    Pipeline.afterTail₀ cfgs (dats m) 0 (V0 m) [hostOps1] c main_v4 = result m c := by
  have e : Pipeline.withArrays (cfgs 0).spec c (V0 m c) (fun w => (dats m 0 c).arrAt w (cfgs 0).N) (Proc.devRef .tc main_v3)
      = product (shapeCast S8192x4096 (m ((c : Thread nD τ).loc main_arg0)) shapeCasts_S4x2048x4096_S8192x4096) (m ((c : Thread nD τ).loc main_arg1)) :=
    ((Pipeline.withArrays_arr spec0 launch0.win.arr_inj c _ _ 2).trans (final m c)).trans (by
      show product (lhs m c) (rhs m c) = _
      rw [lhs_eq, rhs_eq])
  unfold Pipeline.afterTail₀
  show StableHlo.after hostOps1 _ (Proc.devRef .tc main_v4) = _
  after_results
  refine Eq.trans ?_ (congrArg (fun Z : S8192x4096.Idx → EReal => shapeCast S4x2048x4096 Z shapeCasts_S8192x4096_S4x2048x4096) e)
  rfl

/-- The run, read: the result at the reshaped product of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v4 (Pipeline.mem_restRefs_of main_v4 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelIdeal.ResultArray

end
-- ==== Proof.lean ====
/-
  A tiled matrix product against a product computed in two column pieces: both are `x · Wᵀ`.

  The kernel reshapes `x` from 4 × 2048 × 4096 to the 8192 × 4096 matrix `A`, takes the weights as the 4096 × 4096
  matrix `B`, and computes the 8192 × 4096 array `A · Bᵀ` in 1024 × 1024 tiles over a grid `(i, j, k)` of 8 × 4 × 4
  points: for each output tile `(i, j)` an accumulator is zeroed at `k = 0`, receives at each `k` the product of tile
  `(i, k)` of `A` with the transpose of tile `(j, k)` of `B`, and is copied to the output at `k = 3`. Entry by entry
  the accumulator after step `k` holds the first `1024·(k + 1)` terms of the inner product of a row of `A` with a row
  of `B` (Proof/Accumulation.lean, by induction on the grid point), so the array ends at `A · Bᵀ`
  (Proof/ResultArray.lean), which the kernel reshapes back to 4 × 2048 × 4096.

  The reference multiplies `A` by the first 615 rows of `B` and by the other 3481 rows separately and joins the
  two results along the columns: column `n` is the inner product with row `n` of `B` either way
  (Proof/ReferenceProduct.lean), so it too is `A · Bᵀ`, reshaped the same way.

  Over the extended reals a change of float format is the identity and regrouping a sum needs only that addition
  is commutative and associative, which it is with the infinities included: the precondition (finite inputs) is
  not used by the value claim. The three programs' runs terminate without fault and leave their arguments
  unchanged (the two kernels' frames are the generated ones; the reference's is its run with the result dropped).
  The idealization rewrote nothing, so there is nothing to preserve.
-/
import proofs.«115120_j1717986918494_2_alg».proof.Defs
import proofs.«115120_j1717986918494_2_alg».proof.Proof.Gen.Kernel
import proofs.«115120_j1717986918494_2_alg».proof.Proof.Gen.Kernel.Frame
import proofs.«115120_j1717986918494_2_alg».proof.Proof.Gen.KernelIdeal
import proofs.«115120_j1717986918494_2_alg».proof.Proof.Gen.KernelIdeal.Frame
import proofs.«115120_j1717986918494_2_alg».proof.Proof.Gen.ReferenceIdeal
import proofs.«115120_j1717986918494_2_alg».proof.Proof.Gen.ReferenceIdeal.Run
import proofs.«115120_j1717986918494_2_alg».proof.Proof.Gen.ReferenceIdeal.Read
import proofs.«115120_j1717986918494_2_alg».proof.Proof.Gen.Pre_finite_inputs
import proofs.«115120_j1717986918494_2_alg».proof.Proof.ReferenceProduct
import proofs.«115120_j1717986918494_2_alg».proof.Proof.ResultArray
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `A · Bᵀ` reshaped to 4 × 2048 × 4096, of arguments that agree. -/
theorem algebraic : Cert.algebraic_KernelIdeal_ReferenceIdeal := by
  intro m ρ m' ρ' _ hagree
  refine ⟨fun c => Cert.KernelIdeal.ResultArray.result m c, Cert.KernelIdeal.ResultArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq]
  show shapeCast _ (Cert.ReferenceIdeal.Read.val_main_v5 (F := Ideal) _ _) _ = _
  rw [Cert.ReferenceProduct.joined_eq_product, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
